-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 85
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  A graph-convolution layer's aggregation as one function, and the reference as two layers of it.

  Write s and d for the source and target node of each of the 1 700 000 edges (the 1 600 000 given ones followed by one
  self-loop per node), deg for the number of edges into each node, dinv for deg^(-1/2) where deg > 0 and 0 elsewhere, and
  norm(e) = dinv(s e) · dinv(d e). A layer takes projected features P (100000×64) and a bias b, and returns

      aggregate P b  =  ( Σ over edges e with d e = v of  P(s e, ·) · norm(e) )_v  +  b :

  gather the rows of P at the sources, scale each by its edge's norm, add each into its target's row, add the bias to
  every row. Everything in it except P and b is a function of the edge list alone. The reference computes
  aggregate (max(aggregate (X · W1) b1, 0) · W2) b2, recomputing s, d, deg, dinv and norm for the second layer by the same
  operations on the same edge list, hence to the same arrays. The two sums themselves are never opened here: the layers
  are compared as whole functions of P and b.
-/
import proofs.«172882_j5162550690708_1_alg».proof.Proof.RefRead

noncomputable section

namespace Cert.Gcn.Layer

open Cert.ReferenceIdeal Cert.ReferenceIdeal.Gen Cert.ReferenceIdeal.ReadP Idealize.ShloMosaic

/-- The edge list: row 0 the sources, row 1 the targets. -/
abbrev Edges : Type := (⟨S2x1600000, .i32⟩ : BufTy).Contents (Elt Ideal)
/-- Node features after a projection. -/
abbrev Feat : Type := FVec Ideal S100000x64 .f32
/-- A layer's bias. -/
abbrev Bias : Type := FVec Ideal S64 .f32
/-- The second layer's weights. -/
abbrev Weights : Type := FVec Ideal S64x64 .f32

/-- One layer's aggregation: rows of `P` gathered at the edges' sources, each scaled by its edge's norm, added into
    the row of its edge's target from zero, and the bias added to every row. -/
def aggregate (P : Feat) (e : Edges) (b : Bias) : Feat :=
  addf (F := Ideal)
    (Host.scatterAdd (F := Ideal) scatter_S100000x64_S1700000x1_S1700000x64_1_0_0_1 (val_main_v41 (F := Ideal)) (val_main_v42 (F := Ideal) e)
      (mulf (F := Ideal) (Host.gather gather_S100000x64_S1700000x1_S1700000x64_1_0_n_n_0_1_164 P (val_main_v36 (F := Ideal) e))
        (val_main_v39 (F := Ideal) e)))
    (val_main_v45 (F := Ideal) b)

/-- The second projection: the entrywise maximum of `H` with zero, times the weights. -/
def rectifiedProduct (H : Feat) (W : Weights) : Feat :=
  Host.dotGeneral (F := Ideal) (φ₁ := .f32) (φ₂ := .f32) dot_S100000x64_S64x64_S100000x64_1_0_0_1_n_n none (maximumf (F := Ideal) (φ := .f32) H (val_main_call1_v0 (F := Ideal))) W

/-! ## The second layer's edge arrays are the first layer's -/

/-- The node numbers 0 … 99999 appended as self-loops: the same array both times. -/
theorem loops_eq : val_main_v49 (F := Ideal) = val_main_v5 (F := Ideal) := rfl
/-- The sources with self-loops. -/
theorem src_eq (e : Edges) : val_main_v50 (F := Ideal) e = val_main_v6 (F := Ideal) e := rfl
/-- The targets with self-loops. -/
theorem dst_eq (e : Edges) : val_main_v51 (F := Ideal) e = val_main_v7 (F := Ideal) e := rfl
/-- The degrees. -/
theorem deg_eq (e : Edges) : val_main_v55 (F := Ideal) e = val_main_v11 (F := Ideal) e := rfl
/-- deg^(-1/2) where the degree is positive, zero elsewhere. -/
theorem dinv_eq (e : Edges) : val_main_v59 (F := Ideal) e = val_main_v15 (F := Ideal) e := rfl
/-- The edges' norms. -/
theorem norm_eq (e : Edges) : val_main_v74 (F := Ideal) e = val_main_v30 (F := Ideal) e := rfl
/-- The norms repeated along each gathered row. -/
theorem normRows_eq (e : Edges) : val_main_v83 (F := Ideal) e = val_main_v39 (F := Ideal) e := rfl
/-- The sources as gather indices (negative ones wrapped once by the node count). -/
theorem srcCol_eq (e : Edges) : val_main_v80 (F := Ideal) e = val_main_v36 (F := Ideal) e := rfl
/-- The targets as scatter indices. -/
theorem dstCol_eq (e : Edges) : val_main_v86 (F := Ideal) e = val_main_v42 (F := Ideal) e := rfl
/-- The zero array the sums start from. -/
theorem zero_eq : val_main_v85 (F := Ideal) = val_main_v41 (F := Ideal) := rfl
/-- The bias repeated down the rows. -/
theorem biasRows_eq (b : Bias) : val_main_v89 (F := Ideal) b = val_main_v45 (F := Ideal) b := rfl

/-! ## The reference, layer by layer -/

/-- The first layer's output is the aggregation of the first projection. -/
theorem layer1 (x0 : (⟨S100000x128, .f32⟩ : BufTy).Contents (Elt Ideal)) (e : Edges)
    (x2 : (⟨S128x64, .f32⟩ : BufTy).Contents (Elt Ideal)) (x3 : Bias) :
    val_main_v46 (F := Ideal) x0 e x2 x3 = aggregate (val_main_v4 (F := Ideal) x0 x2) e x3 := rfl

/-- The second projection is the rectified product of the first layer's output. -/
theorem projection2 (x0 : (⟨S100000x128, .f32⟩ : BufTy).Contents (Elt Ideal)) (e : Edges)
    (x2 : (⟨S128x64, .f32⟩ : BufTy).Contents (Elt Ideal)) (x3 : Bias) (x4 : Weights) :
    val_main_v48 (F := Ideal) x0 e x2 x3 x4 = rectifiedProduct (val_main_v46 (F := Ideal) x0 e x2 x3) x4 := rfl

/-- The second layer's output is the aggregation of the second projection, over the same edge arrays. -/
theorem layer2 (x0 : (⟨S100000x128, .f32⟩ : BufTy).Contents (Elt Ideal)) (e : Edges)
    (x2 : (⟨S128x64, .f32⟩ : BufTy).Contents (Elt Ideal)) (x3 : Bias) (x4 : Weights) (x5 : Bias) :
    val_main_v90 (F := Ideal) x0 e x2 x3 x4 x5 = aggregate (val_main_v48 (F := Ideal) x0 e x2 x3 x4) e x5 := by
  unfold val_main_v90 val_main_v87 val_main_v84 val_main_v81 aggregate
  rw [zero_eq, dstCol_eq, srcCol_eq, normRows_eq, biasRows_eq]

/-- The reference's result: two layers of the aggregation around the rectified product. -/
theorem reference_value (x0 : (⟨S100000x128, .f32⟩ : BufTy).Contents (Elt Ideal)) (e : Edges)
    (x2 : (⟨S128x64, .f32⟩ : BufTy).Contents (Elt Ideal)) (x3 : Bias) (x4 : Weights) (x5 : Bias) :
    val_main_v90 (F := Ideal) x0 e x2 x3 x4 x5
      = aggregate (rectifiedProduct (aggregate (val_main_v4 (F := Ideal) x0 x2) e x3) x4) e x5 := by
  rw [layer2, projection2, layer1]

end Cert.Gcn.Layer

end
-- ==== Proof.KernelRun.lean ====
/-
  The idealized kernel's run with its result kept.

  The program is five stretches of host operations around two tiled matrix products. Its buffers' contents at the
  seven boundaries between those pieces are a fold from the launch memory: a stretch of host operations rewrites the
  buffers it writes, a product leaves its output array at what its ten row blocks write back and every other buffer
  as it was. Every weakly fair execution terminates with each unscoped buffer at the last boundary's contents; here
  that is read at the result array as well as at the six argument arrays, which no piece writes.
-/
import proofs.«172882_j5162550690708_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the six argument arrays as launched. -/
theorem run : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Gcn.KernelRun

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibDenseLayer.lean ====
/-
  A dense layer, written two ways, on the extended reals.

  * `matmul_zero_eq_dotGeneral`: a plain m×k by k×n matrix product accumulated into the zero matrix is the host's
    plain product of the same matrices: both read, at (a, b), the sum over the contracted coordinate c of
    A(a, c) · B(c, b).
  * `biasRow_eq`: a length-b vector cast to a [1, b] row and repeated down a rows is the same [a, b] array as the
    host's two broadcasts (first to [1, b] along axis 1, then to [a, b]): both read, at (p, q), the vector at q.
  * `dense_apply`: the host's plain product plus the bias row, read at an entry.
  * `splat_eq`: a scalar repeated over a shape is the host's broadcast of the rank-zero constant of the same bits.
-/
import Idealize.ShloMosaic.PureOps.Ideal.Laws
import Idealize.ShloMosaic.Lib.ValueIdx
import Idealize.ShloMosaic.Lib.ValueLayout
import Idealize.ShloMosaic.Lib.Pipeline.Value
import proofs.«172882_j5162550690708_1_alg».proof.Proof.LibPlainMatmul
import proofs.«172882_j5162550690708_1_alg».proof.Proof.LibPlainDot

noncomputable section

namespace Cert.LibDenseLayer

open Idealize.ShloMosaic Idealize.ShloMosaic.ValueIdx

/-- Accumulated into zero, the plain product of an m×k by a k×n matrix is the host's plain product. -/
theorem matmul_zero_eq_dotGeneral {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32)
      = Host.dotGeneral (DotDims.plain m k n) prec A B := by
  funext i
  obtain ⟨a, b, rfl⟩ : ∃ (a : Fin m) (b : Fin n), i = ix2 a b := ⟨i 0, i 1, eq_ix2 i⟩
  rw [matmul_plain_zero_apply, hostDotGeneral_plain_apply]

/-- A dense layer at an entry: the host's plain product plus the bias row reads, at (a, b), the sum over the contracted
    coordinate c of A(a, c) · B(c, b), plus the bias at b. -/
theorem dense_apply {m k n : Nat} {φ : FTy} (prec : Option ContractPrecision)
    (A : FVec Ideal ⟨2, ![m, k]⟩ φ) (B : FVec Ideal ⟨2, ![k, n]⟩ φ) (v : FVec Ideal ⟨1, ![n]⟩ φ)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    addf (Host.dotGeneral (DotDims.plain m k n) prec A B)
        (broadcastInDim ⟨2, ![m, n]⟩ ![0, 1] g2 (broadcastInDim ⟨2, ![1, n]⟩ ![1] g1 v)) (ix2 a b)
      = (∑ c : Fin k, A (ix2 a c) * B (ix2 c b)) + v (ix1 b) := by
  show Host.dotGeneral (DotDims.plain m k n) prec A B (ix2 a b)
      + broadcastInDim ⟨2, ![m, n]⟩ ![0, 1] g2 (broadcastInDim ⟨2, ![1, n]⟩ ![1] g1 v) (ix2 a b) = _
  rw [hostDotGeneral_plain_apply]
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

variable {α : Type}

/-- A vector as a row repeated down the rows, the vector way and the host way. -/
theorem biasRow_eq {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (g1 : (⟨1, ![b]⟩ : Shape).BroadcastsInDim ⟨2, ![1, b]⟩ ![1])
    (g2 : (⟨2, ![1, b]⟩ : Shape).BroadcastsInDim ⟨2, ![a, b]⟩ ![0, 1]) :
    broadcastTo ⟨2, ![a, b]⟩ (shapeCast ⟨2, ![1, b]⟩ v h1) h2
      = broadcastInDim ⟨2, ![a, b]⟩ ![0, 1] g2 (broadcastInDim ⟨2, ![1, b]⟩ ![1] g1 v) := by
  funext i
  obtain ⟨p, q, rfl⟩ : ∃ (p : Fin a) (q : Fin b), i = ix2 p q := ⟨i 0, i 1, eq_ix2 i⟩
  rw [broadcastTo_1b_ab_apply, shapeCast_a_1a_apply]
  have hq : q.val = if b = 1 then 0 else q.val := by
    split
    · have := q.isLt; omega
    · rfl
  have hk2 : ∀ ax : Fin 2, ((ix2 (0 : Fin 1) q : (⟨2, ![1, b]⟩ : Shape).Idx) ax).val
      = if (⟨2, ![1, b]⟩ : Shape).size ax = 1 then 0 else ((ix2 p q : (⟨2, ![a, b]⟩ : Shape).Idx) ((![0, 1] : Fin 2 → Fin 2) ax)).val := fun ax =>
    match ax with
    | ⟨0, _⟩ => rfl
    | ⟨1, _⟩ => hq
  have hk1 : ∀ ax : Fin 1, ((ix1 q : (⟨1, ![b]⟩ : Shape).Idx) ax).val
      = if (⟨1, ![b]⟩ : Shape).size ax = 1 then 0 else ((ix2 (0 : Fin 1) q : (⟨2, ![1, b]⟩ : Shape).Idx) ((![1] : Fin 1 → Fin 2) ax)).val := fun ax =>
    match ax with
    | ⟨0, _⟩ => hq
  rw [broadcastInDim_apply _ g2 _ (ix2 p q) (ix2 (0 : Fin 1) q) hk2, broadcastInDim_apply _ g1 v (ix2 (0 : Fin 1) q) (ix1 q) hk1]

/-- A scalar repeated over a shape is the host's broadcast of the rank-zero constant of the same bits. -/
theorem splat_eq {F : FTy → Type} [FloatOps F] {s : Shape} {φ : FTy} (bits : BitVec φ.bits)
    (g : (⟨0, ![]⟩ : Shape).BroadcastsInDim s ![]) :
    (broadcast s (Scalar.ofBits φ bits : F φ) : FVec F s φ)
      = broadcastInDim s ![] g (constant (F := F) ⟨0, ![]⟩ φ bits) := by
  funext i
  rfl

end Cert.LibDenseLayer

end
-- ==== Proof.LibRowBlocks.lean ====
/-
  A block of rows of a matrix product, at the exact (extended-real) values.

  The (r, q) entry of the product of an M×k matrix X by a k×n matrix W is the sum over c of X(r, c) · W(c, q): it reads
  row r of X and column q of W and nothing else. So if row p of an m×k matrix Xb is row r of X, and column q of Wb is
  column q of W, the (p, q) entry of Xb · Wb is the (r, q) entry of X · W — a product computed one block of rows at a
  time is the whole product. The same holds with each left operand replaced by its entrywise maximum with a second array
  (a rectifier applied block by block or to the whole matrix), when those second arrays agree on the row as well.
-/
import Idealize.ShloMosaic.PureOps.Ideal.Laws
import Idealize.ShloMosaic.Lib.ValueIdx
import proofs.«172882_j5162550690708_1_alg».proof.Proof.LibPlainDot

noncomputable section

open scoped BigOperators

namespace Cert.LibRowBlocks

open Idealize.ShloMosaic Idealize.ShloMosaic.ValueIdx

/-- The (p, q) entry of the host's product of a block of rows is the (r, q) entry of the whole product, when the
    block's row p is the matrix's row r and the right operands agree on column q. -/
theorem hostDot_rows {M m k n : Nat} {φ₁ φ₂ : FTy} (prec : Option ContractPrecision)
    (X : FVec Ideal ⟨2, ![M, k]⟩ φ₁) (Xb : FVec Ideal ⟨2, ![m, k]⟩ φ₁)
    (W Wb : FVec Ideal ⟨2, ![k, n]⟩ φ₂) (r : Fin M) (p : Fin m) (q : Fin n)
    (hX : ∀ c : Fin k, Xb (ix2 p c) = X (ix2 r c)) (hW : ∀ c : Fin k, Wb (ix2 c q) = W (ix2 c q)) :
    Host.dotGeneral (DotDims.plain m k n) prec Xb Wb (ix2 p q)
      = Host.dotGeneral (DotDims.plain M k n) prec X W (ix2 r q) := by
  rw [hostDotGeneral_plain_apply, hostDotGeneral_plain_apply]
  exact Finset.sum_congr rfl fun c _ => by rw [hX c, hW c]

/-- The same with each left operand under an entrywise maximum: the (p, q) entry of max(Xb, Zb) · Wb is the (r, q) entry of
    max(X, Z) · W when row p of Xb and of Zb are row r of X and of Z. -/
theorem hostDot_rows_max {M m k n : Nat} {φ₁ φ₂ : FTy} (prec : Option ContractPrecision)
    (X Z : FVec Ideal ⟨2, ![M, k]⟩ φ₁) (Xb Zb : FVec Ideal ⟨2, ![m, k]⟩ φ₁)
    (W Wb : FVec Ideal ⟨2, ![k, n]⟩ φ₂) (r : Fin M) (p : Fin m) (q : Fin n)
    (hX : ∀ c : Fin k, Xb (ix2 p c) = X (ix2 r c)) (hZ : ∀ c : Fin k, Zb (ix2 p c) = Z (ix2 r c))
    (hW : ∀ c : Fin k, Wb (ix2 c q) = W (ix2 c q)) :
    Host.dotGeneral (DotDims.plain m k n) prec (maximumf Xb Zb) Wb (ix2 p q)
      = Host.dotGeneral (DotDims.plain M k n) prec (maximumf X Z) W (ix2 r q) :=
  hostDot_rows prec (maximumf X Z) (maximumf Xb Zb) W Wb r p q
    (fun c => by rw [maximumf_apply, maximumf_apply, hX c, hZ c]) hW

end Cert.LibRowBlocks

end
-- ==== Proof.Region0.lean ====
/-
  The first projection, X · W1, computed ten thousand rows at a time.

  X is 100000×128 and W1 is 128×64. Grid point t loads rows 10000·t … 10000·t + 9999 of X and all of W1, multiplies
  them into a zero accumulator (the narrowing of both operands to bf16 is the identity on exact values) and writes the
  10000×64 result back as rows 10000·t … of the output. The (p, q) entry of that block is the sum over c of
  X(10000·t + p, c) · W1(c, q), which is the (10000·t + p, q) entry of the whole product X · W1; the ten blocks tile
  the 100000 rows, so the output array ends holding the host's product of the two arrays as the call found them.
-/
import proofs.«172882_j5162550690708_1_alg».proof.Proof.Gen.KernelIdeal.Frame
import Idealize.ShloMosaic.Lib.Pipeline.Value
import Idealize.ShloMosaic.Lib.ValueIdx
import proofs.«172882_j5162550690708_1_alg».proof.Proof.LibDenseLayer
import proofs.«172882_j5162550690708_1_alg».proof.Proof.LibRowBlocks

set_option maxRecDepth 16384

noncomputable section

namespace Cert.Gcn.Region0

open Cert.KernelIdeal Cert.KernelIdeal.Gen
open Idealize.ShloMosaic Idealize.ShloMosaic.TcCoe Idealize.ShloMosaic.ValueIdx Idealize.SL.Sem
open Idealize.ShloMosaic.Pipeline (Dat)

-- the buffers' contents when the product is entered: any contents
variable (V : (c : Dev nD) → (b : Ref sig .tc) → Buf (Elt Ideal) ((c : Thread nD τ).loc b))

/-- The offsets of a whole-buffer access, spelt as the constant zero. -/
theorem zeroOffsets : (![0, 0] : Fin 2 → Nat) = fun _ => 0 := funext fun a => by fin_cases a <;> rfl

/-- X as the call finds it. -/
abbrev X (c : Dev nD) : FVec Ideal S100000x128 .f32 := V c main_arg0
/-- W1 as the call finds it. -/
abbrev W (c : Dev nD) : FVec Ideal S128x64 .f32 := V c main_arg2
/-- The whole product X · W1. -/
abbrev product (c : Dev nD) : FVec Ideal S100000x64 .f32 :=
  Host.dotGeneral (φ₁ := .f32) (φ₂ := .f32) (DotDims.plain 100000 128 64) none (X V c) (W V c)

/-- The block a grid point computes is the host's product of the two blocks it loaded: the accumulator starts at zero
    and narrowing to bf16 changes nothing at exact values. -/
theorem block_eq (x0 : FVec Ideal S10000x128 .f32) (x1 : FVec Ideal S128x64 .f32) :
    k0_pay1 (F := Ideal) x0 x1 = Host.dotGeneral (φ₁ := .f32) (φ₂ := .f32) (DotDims.plain 10000 128 64) none x0 x1 := by
  show matmul (φ₁ := .f32) (φ₂ := .f32) (DotDims.plain 10000 128 64) none x0 x1 (constant ⟨2, ![10000, 64]⟩ .f32 0x00000000#32) = _
  exact Cert.LibDenseLayer.matmul_zero_eq_dotGeneral none x0 x1

/-- Where the three windows' blocks sit at a grid point: the row block of X and of the output are the same one, below
    ten; X's and the output's column block and both of W1's block coordinates are zero. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks of the output is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What grid point t writes back is its block of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x64) zeroOffsets]
  rw [block_eq]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  have hq : q.val < 64 := q.isLt
  have hr : win0_2.index t (0 : Fin 2) * 10000 + p.val < 100000 := by omega
  have hemb : ((cfg0.win 2).blk t).view.emb (ix2 p q)
      = (ix2 ⟨win0_2.index t (0 : Fin 2) * 10000 + p.val, hr⟩ q : S100000x64.Idx) := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 64 + 1 * q.val = q.val; omega
  show Host.dotGeneral (φ₁ := .f32) (φ₂ := .f32) (DotDims.plain 10000 128 64) none
      (iblk0 V c 0 t : FVec Ideal S10000x128 .f32) (iblk0 V c 1 t : FVec Ideal S128x64 .f32) (ix2 p q)
    = product V c (((cfg0.win 2).blk t).view.emb (ix2 p q))
  rw [hemb]
  refine Cert.LibRowBlocks.hostDot_rows (φ₁ := .f32) (φ₂ := .f32) none (X V c) (iblk0 V c 0 t : FVec Ideal S10000x128 .f32)
    (W V c) (iblk0 V c 1 t : FVec Ideal S128x64 .f32)
    ⟨win0_2.index t (0 : Fin 2) * 10000 + p.val, hr⟩ p q (fun k => ?_) (fun k => ?_)
  · have hk : k.val < 128 := k.isLt
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + p.val; omega
    | ⟨1, _⟩ => show win0_0.index t (1 : Fin 2) * 128 + 1 * k.val = k.val; omega
  · have hk : k.val < 128 := k.isLt
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega

/-- An entry of the output array is in grid point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Every entry of the output array is in the block of the grid point that owns its row: row r belongs to block
    r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the ten grid points the output array holds the product of the two input arrays as the call found them. -/
theorem final (c : Dev nD) : (dat0 V c).arrAt 2 cfg0.N = product V c :=
  (dat0 V c).arrAt_eq_of_cover 2 (product V c) (fun t _ => flushed_eq V c t) (cover)

end Cert.Gcn.Region0

end
-- ==== Proof.Region1.lean ====
/-
  The second projection, max(H, 0) · W2, computed ten thousand rows at a time.

  H is the 100000×64 output of the first layer and W2 is 64×64. Grid point t loads rows 10000·t … 10000·t + 9999 of H
  and all of W2, replaces each entry of the block by its maximum with zero, multiplies into a zero accumulator (the
  narrowing of both operands to bf16 is the identity on exact values) and writes the 10000×64 result back as rows
  10000·t … of the output. The (p, q) entry of that block is the sum over c of max(H(10000·t + p, c), 0) · W2(c, q),
  the (10000·t + p, q) entry of the product of the whole rectified array with W2; the ten blocks tile the rows, so the
  output array ends holding the host's product of max(H, 0) and W2, for the arrays as the call found them.
-/
import proofs.«172882_j5162550690708_1_alg».proof.Proof.Gen.KernelIdeal.Frame
import Idealize.ShloMosaic.Lib.Pipeline.Value
import Idealize.ShloMosaic.Lib.ValueIdx
import proofs.«172882_j5162550690708_1_alg».proof.Proof.LibDenseLayer
import proofs.«172882_j5162550690708_1_alg».proof.Proof.LibRowBlocks

set_option maxRecDepth 16384

noncomputable section

namespace Cert.Gcn.Region1

open Cert.KernelIdeal Cert.KernelIdeal.Gen
open Idealize.ShloMosaic Idealize.ShloMosaic.TcCoe Idealize.ShloMosaic.ValueIdx Idealize.SL.Sem
open Idealize.ShloMosaic.Pipeline (Dat)

-- the buffers' contents when the product is entered: any contents
variable (V : (c : Dev nD) → (b : Ref sig .tc) → Buf (Elt Ideal) ((c : Thread nD τ).loc b))

/-- The offsets of a whole-buffer access, spelt as the constant zero. -/
theorem zeroOffsets : (![0, 0] : Fin 2 → Nat) = fun _ => 0 := funext fun a => by fin_cases a <;> rfl

/-- The zero array the host's rectifier compares with: the zero constant repeated over all 100000×64 entries. -/
abbrev zeros : FVec Ideal S100000x64 .f32 :=
  broadcastInDim S100000x64 ![] bcast_S_S100000x64 (constant (F := Ideal) S_ .f32 0x00000000#32)

/-- A block of zeros: the zero scalar repeated over 10000×64 entries. -/
abbrev zeroBlock : FVec Ideal S10000x64 .f32 := broadcast S10000x64 (Scalar.ofBits (F := Ideal) .f32 0x00000000#32)

/-- The block a grid point computes is the host's product of the rectified block it loaded with the other block: the
    accumulator starts at zero, the reshape onto the same shape and the narrowing to bf16 change nothing. -/
theorem block_eq (x0 : FVec Ideal S10000x64 .f32) (x1 : FVec Ideal S64x64 .f32) :
    k1_pay1 (F := Ideal) x0 x1
      = Host.dotGeneral (φ₁ := .f32) (φ₂ := .f32) (DotDims.plain 10000 64 64) none (maximumf x0 zeroBlock) x1 := by
  unfold k1_pay1
  rw [shapeCast_self]
  show matmul (φ₁ := .f32) (φ₂ := .f32) (DotDims.plain 10000 64 64) none (maximumf x0 zeroBlock) x1
      (constant ⟨2, ![10000, 64]⟩ .f32 0x00000000#32) = _
  exact Cert.LibDenseLayer.matmul_zero_eq_dotGeneral none (maximumf x0 zeroBlock) x1

/-- H, the first layer's output, as the call finds it. -/
abbrev H (c : Dev nD) : FVec Ideal S100000x64 .f32 := V c main_v46
/-- W2 as the call finds it. -/
abbrev W (c : Dev nD) : FVec Ideal S64x64 .f32 := V c main_arg4
/-- The whole product max(H, 0) · W2. -/
abbrev product (c : Dev nD) : FVec Ideal S100000x64 .f32 :=
  Host.dotGeneral (φ₁ := .f32) (φ₂ := .f32) (DotDims.plain 100000 64 64) none (maximumf (H V c) zeros) (W V c)

/-- Where the three windows' blocks sit at a grid point: the row block of H and of the output are the same one, below
    ten; their column block and both of W2's block coordinates are zero. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks of the output is some grid point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What grid point t writes back is its block of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero zeroOffsets]
  simp only [View.ld_unit_zero (S := S10000x64) zeroOffsets, View.ld_unit_zero (S := S64x64) zeroOffsets]
  rw [block_eq]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  have hq : q.val < 64 := q.isLt
  have hr : win1_2.index t (0 : Fin 2) * 10000 + p.val < 100000 := by omega
  have hemb : ((cfg1.win 2).blk t).view.emb (ix2 p q)
      = (ix2 ⟨win1_2.index t (0 : Fin 2) * 10000 + p.val, hr⟩ q : S100000x64.Idx) := by
    funext a; apply Fin.ext
    match a with
    | ⟨0, _⟩ => show win1_2.index t (0 : Fin 2) * 10000 + 1 * p.val = win1_2.index t (0 : Fin 2) * 10000 + p.val; omega
    | ⟨1, _⟩ => show win1_2.index t (1 : Fin 2) * 64 + 1 * q.val = q.val; omega
  show Host.dotGeneral (φ₁ := .f32) (φ₂ := .f32) (DotDims.plain 10000 64 64) none
      (maximumf (iblk1 V c 0 t : FVec Ideal S10000x64 .f32) zeroBlock) (iblk1 V c 1 t : FVec Ideal S64x64 .f32) (ix2 p q)
    = product V c (((cfg1.win 2).blk t).view.emb (ix2 p q))
  rw [hemb]
  refine Cert.LibRowBlocks.hostDot_rows_max (φ₁ := .f32) (φ₂ := .f32) none (H V c) zeros
    (iblk1 V c 0 t : FVec Ideal S10000x64 .f32) zeroBlock (W V c) (iblk1 V c 1 t : FVec Ideal S64x64 .f32)
    ⟨win1_2.index t (0 : Fin 2) * 10000 + p.val, hr⟩ p q (fun k => ?_) (fun k => rfl) (fun k => ?_)
  · have hk : k.val < 64 := k.isLt
    show V c main_v46 (((cfg1.win 0).blk t).view.emb (ix2 p k)) = _
    refine congrArg (V c main_v46) (funext fun a => Fin.ext ?_)
    match a with
    | ⟨0, _⟩ => show win1_0.index t (0 : Fin 2) * 10000 + 1 * p.val = win1_2.index t (0 : Fin 2) * 10000 + p.val; omega
    | ⟨1, _⟩ => show win1_0.index t (1 : Fin 2) * 64 + 1 * k.val = k.val; omega
  · have hk : k.val < 64 := k.isLt
    show V c main_arg4 (((cfg1.win 1).blk t).view.emb (ix2 k q)) = _
    refine congrArg (V c main_arg4) (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega

/-- An entry of the output array is in grid point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- Every entry of the output array is in the block of the grid point that owns its row: row r belongs to block
    r / 10000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the ten grid points the output array holds the product of the rectified input array and the weights, for the
    arrays as the call found them. -/
theorem final (c : Dev nD) : (dat1 V c).arrAt 2 cfg1.N = product V c :=
  (dat1 V c).arrAt_eq_of_cover 2 (product V c) (fun t _ => flushed_eq V c t) (cover)

end Cert.Gcn.Region1

end
-- ==== Proof.KernelHost.lean ====
/-
  The idealized kernel's host operations, read stretch by stretch, and its result as a function of its arguments.

  Before the first product the host operations build, from the edge list alone, the source and target arrays s and d
  (the given edges followed by one self-loop per node) and the column of edge norms. After each product they gather the
  product's rows at s, scale each by its edge's norm, add each into its target's row from zero and add the layer's bias
  to every row: the layer's aggregation, the same function of (projected features, edge list, bias) the reference
  applies. Each stretch is read once over arbitrary starting contents; a stretch leaves the buffers it does not write as
  they were, and a product leaves every buffer but its output array as it was. Chaining the seven boundaries gives the
  result array as  aggregate (max(aggregate (X · W1) b1, 0) · W2) b2  of the six arguments as launched.
-/
import proofs.«172882_j5162550690708_1_alg».proof.Proof.Gen.KernelIdeal.Frame
import proofs.«172882_j5162550690708_1_alg».proof.Proof.Layer
import proofs.«172882_j5162550690708_1_alg».proof.Proof.Region0
import proofs.«172882_j5162550690708_1_alg».proof.Proof.Region1

set_option maxRecDepth 16384

noncomputable section

namespace Cert.Gcn.KernelHost

open Cert.KernelIdeal Cert.KernelIdeal.Gen
open Idealize.ShloMosaic Idealize.ShloMosaic.TcCoe Idealize.ShloMosaic.StableHlo Idealize.SL.Sem
open Cert.Gcn.Layer (aggregate rectifiedProduct)

/-! ## One stretch at a time, from any contents -/

section Stretches

variable (Wv : Valuation τ sig (Elt Ideal))

/-- The aggregation as the kernel's host operations spell it, of the five arrays they read: projected features, the
    sources, the targets, the column of norms, the bias. -/
def aggK (P : FVec Ideal S100000x64 .f32) (s d : (⟨S1700000, .i32⟩ : BufTy).Contents (Elt Ideal))
    (n : FVec Ideal S1700000x1 .f32) (b : FVec Ideal S64 .f32) : FVec Ideal S100000x64 .f32 :=
  addf (F := Ideal)
    (Host.scatterAdd (F := Ideal) scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 d)
      (mulf (F := Ideal)
        (Host.gather gather_S100000x64_S1700000x1_S1700000x64_1_0_n_n_0_1_164 P
          (broadcastInDim S1700000x1 ![0] bcast_S1700000_S1700000x1_0
            (select (cmpi .slt s (broadcastInDim S1700000 ![] bcast_S_S1700000 (constantI S_ 32 0#32)))
              (addi s (broadcastInDim S1700000 ![] bcast_S_S1700000 (constantI S_ 32 100000#32))) s)))
        (broadcastInDim S1700000x64 ![0, 1] bcast_S1700000x1_S1700000x64_0_1 n)))
    (broadcastInDim S100000x64 ![0, 1] bcast_S1x64_S100000x64_0_1 (broadcastInDim S1x64 ![1] bcast_S64_S1x64_1 b))

/-- Over the reference's edge arrays the kernel's spelling is the layer's aggregation. -/
theorem aggK_eq (P : FVec Ideal S100000x64 .f32) (e : (⟨S2x1600000, .i32⟩ : BufTy).Contents (Elt Ideal)) (b : FVec Ideal S64 .f32) :
    aggK P (Cert.ReferenceIdeal.ReadP.val_main_v6 (F := Ideal) e) (Cert.ReferenceIdeal.ReadP.val_main_v7 (F := Ideal) e) (Cert.ReferenceIdeal.ReadP.val_main_v38 (F := Ideal) e) b
      = aggregate P e b := rfl

/-! ### Before the first product -/

/-- The sources with self-loops. -/
theorem entry_src : after hostOps0_2 (after hostOps0_1 (after hostOps0 Wv)) (Proc.devRef .tc main_v5)
    = Cert.ReferenceIdeal.ReadP.val_main_v6 (F := Ideal) (Wv (Proc.devRef .tc main_arg1)) := by
  dsimp only [hostOps0, hostOps0_1, hostOps0_2]
  after_results_simp <;> rfl
/-- The targets with self-loops. -/
theorem entry_dst : after hostOps0_2 (after hostOps0_1 (after hostOps0 Wv)) (Proc.devRef .tc main_v6)
    = Cert.ReferenceIdeal.ReadP.val_main_v7 (F := Ideal) (Wv (Proc.devRef .tc main_arg1)) := by
  dsimp only [hostOps0, hostOps0_1, hostOps0_2]
  after_results_simp <;> rfl
/-- The column of edge norms as the kernel's host operations spell it, of the three arrays they read: deg^(-1/2)
    (zero where the degree is not positive), the sources and the targets. -/
def normK (dinv : FVec Ideal S100000 .f32) (s d : (⟨S1700000, .i32⟩ : BufTy).Contents (Elt Ideal)) : FVec Ideal S1700000x1 .f32 :=
  broadcastInDim S1700000x1 ![0] bcast_S1700000_S1700000x1_0
    (mulf (F := Ideal)
      (Host.gather gather_S100000_S1700000x1_S1700000_n_0_n_n_0_1_1 dinv
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (Host.gather gather_S100000_S1700000x1_S1700000_n_0_n_n_0_1_1 dinv
        (broadcastInDim S1700000x1 ![0] bcast_S1700000_S1700000x1_0
          (select (cmpi .slt d (broadcastInDim S1700000 ![] bcast_S_S1700000 (constantI S_ 32 0#32)))
            (addi d (broadcastInDim S1700000 ![] bcast_S_S1700000 (constantI S_ 32 100000#32))) d))))

/-- Over the reference's arrays the kernel's spelling is the reference's column of norms. -/
theorem normK_eq (e : (⟨S2x1600000, .i32⟩ : BufTy).Contents (Elt Ideal)) :
    normK (Cert.ReferenceIdeal.ReadP.val_main_v15 (F := Ideal) e) (Cert.ReferenceIdeal.ReadP.val_main_v6 (F := Ideal) e) (Cert.ReferenceIdeal.ReadP.val_main_v7 (F := Ideal) e)
      = Cert.ReferenceIdeal.ReadP.val_main_v38 (F := Ideal) e := rfl

/-- deg^(-1/2) where the degree is positive and zero elsewhere, from its three parts. -/
theorem dinv_eq (e : (⟨S2x1600000, .i32⟩ : BufTy).Contents (Elt Ideal)) :
    select (Cert.ReferenceIdeal.ReadP.val_main_v13 (F := Ideal) e) (Cert.ReferenceIdeal.ReadP.val_main_v14 (F := Ideal) e)
        (broadcastInDim S100000 ![] bcast_S_S100000 (constant (F := Ideal) S_ .f32 0x00000000#32))
      = Cert.ReferenceIdeal.ReadP.val_main_v15 (F := Ideal) e := rfl

/-- Where the degree is positive, after the first stretch. -/
theorem pre_pos : after hostOps0 Wv (Proc.devRef .tc main_v12) = Cert.ReferenceIdeal.ReadP.val_main_v13 (F := Ideal) (Wv (Proc.devRef .tc main_arg1)) := by
  dsimp only [hostOps0]
  after_results_simp <;> rfl
/-- deg^(-1/2), after the first stretch. -/
theorem pre_rsqrt : after hostOps0 Wv (Proc.devRef .tc main_v13) = Cert.ReferenceIdeal.ReadP.val_main_v14 (F := Ideal) (Wv (Proc.devRef .tc main_arg1)) := by
  dsimp only [hostOps0]
  after_results_simp <;> rfl
/-- The zero the selection falls back to, after the first stretch. -/
theorem pre_zero : after hostOps0 Wv (Proc.devRef .tc main_cst_2) = constant (F := Ideal) S_ .f32 0x00000000#32 := by
  dsimp only [hostOps0]
  after_results_simp <;> rfl
/-- The sources, after the first stretch. -/
theorem pre_src : after hostOps0 Wv (Proc.devRef .tc main_v5) = Cert.ReferenceIdeal.ReadP.val_main_v6 (F := Ideal) (Wv (Proc.devRef .tc main_arg1)) := by
  dsimp only [hostOps0]
  after_results_simp <;> rfl
/-- The targets, after the first stretch. -/
theorem pre_dst : after hostOps0 Wv (Proc.devRef .tc main_v6) = Cert.ReferenceIdeal.ReadP.val_main_v7 (F := Ideal) (Wv (Proc.devRef .tc main_arg1)) := by
  dsimp only [hostOps0]
  after_results_simp <;> rfl
/-- The selection itself, from any contents. -/
theorem call_out : after hostOps0_1 Wv (Proc.devRef .tc main_v14)
    = select (Wv (Proc.devRef .tc main_v12)) (Wv (Proc.devRef .tc main_v13))
        (broadcastInDim S100000 ![] bcast_S_S100000 (Wv (Proc.devRef .tc main_cst_2))) := by
  dsimp only [hostOps0_1]
  after_results_simp <;> rfl
/-- The selection does not write the sources. -/
theorem call_src : after hostOps0_1 Wv (Proc.devRef .tc main_v5) = Wv (Proc.devRef .tc main_v5) := by
  dsimp only [hostOps0_1]
  after_results_simp <;> rfl
/-- The selection does not write the targets. -/
theorem call_dst : after hostOps0_1 Wv (Proc.devRef .tc main_v6) = Wv (Proc.devRef .tc main_v6) := by
  dsimp only [hostOps0_1]
  after_results_simp <;> rfl
/-- The column of norms, from any contents. -/
theorem norm_out : after hostOps0_2 Wv (Proc.devRef .tc main_v30)
    = normK (Wv (Proc.devRef .tc main_v14)) (Wv (Proc.devRef .tc main_v5)) (Wv (Proc.devRef .tc main_v6)) := by
  dsimp only [hostOps0_2]
  after_results_simp <;> rfl

/-- The column of edge norms. -/
theorem entry_norm : after hostOps0_2 (after hostOps0_1 (after hostOps0 Wv)) (Proc.devRef .tc main_v30)
    = Cert.ReferenceIdeal.ReadP.val_main_v38 (F := Ideal) (Wv (Proc.devRef .tc main_arg1)) := by
  rw [norm_out (after hostOps0_1 (after hostOps0 Wv)), call_out (after hostOps0 Wv), call_src (after hostOps0 Wv),
    call_dst (after hostOps0 Wv), pre_pos Wv, pre_rsqrt Wv, pre_zero Wv, pre_src Wv, pre_dst Wv, dinv_eq]
  exact normK_eq _
/-- Argument 0 is not written. -/
theorem entry_arg0 : after hostOps0_2 (after hostOps0_1 (after hostOps0 Wv)) (Proc.devRef .tc main_arg0) = Wv (Proc.devRef .tc main_arg0) := by
  dsimp only [hostOps0, hostOps0_1, hostOps0_2]
  after_results_simp <;> rfl
/-- Argument 2 is not written. -/
theorem entry_arg2 : after hostOps0_2 (after hostOps0_1 (after hostOps0 Wv)) (Proc.devRef .tc main_arg2) = Wv (Proc.devRef .tc main_arg2) := by
  dsimp only [hostOps0, hostOps0_1, hostOps0_2]
  after_results_simp <;> rfl
/-- Argument 3 is not written. -/
theorem entry_arg3 : after hostOps0_2 (after hostOps0_1 (after hostOps0 Wv)) (Proc.devRef .tc main_arg3) = Wv (Proc.devRef .tc main_arg3) := by
  dsimp only [hostOps0, hostOps0_1, hostOps0_2]
  after_results_simp <;> rfl
/-- Argument 4 is not written. -/
theorem entry_arg4 : after hostOps0_2 (after hostOps0_1 (after hostOps0 Wv)) (Proc.devRef .tc main_arg4) = Wv (Proc.devRef .tc main_arg4) := by
  dsimp only [hostOps0, hostOps0_1, hostOps0_2]
  after_results_simp <;> rfl
/-- Argument 5 is not written. -/
theorem entry_arg5 : after hostOps0_2 (after hostOps0_1 (after hostOps0 Wv)) (Proc.devRef .tc main_arg5) = Wv (Proc.devRef .tc main_arg5) := by
  dsimp only [hostOps0, hostOps0_1, hostOps0_2]
  after_results_simp <;> rfl

/-! ### Between the products -/

/-- The first layer's output. -/
theorem mid_out : after hostOps1 Wv (Proc.devRef .tc main_v46)
    = aggK (Wv (Proc.devRef .tc main_v31)) (Wv (Proc.devRef .tc main_v5)) (Wv (Proc.devRef .tc main_v6))
        (Wv (Proc.devRef .tc main_v30)) (Wv (Proc.devRef .tc main_arg3)) := by
  dsimp only [hostOps1]
  after_results_simp <;> rfl
/-- `main_v5` is not written. -/
theorem mid_main_v5 : after hostOps1 Wv (Proc.devRef .tc main_v5) = Wv (Proc.devRef .tc main_v5) := by
  dsimp only [hostOps1]
  after_results_simp <;> rfl
/-- `main_v6` is not written. -/
theorem mid_main_v6 : after hostOps1 Wv (Proc.devRef .tc main_v6) = Wv (Proc.devRef .tc main_v6) := by
  dsimp only [hostOps1]
  after_results_simp <;> rfl
/-- `main_v30` is not written. -/
theorem mid_main_v30 : after hostOps1 Wv (Proc.devRef .tc main_v30) = Wv (Proc.devRef .tc main_v30) := by
  dsimp only [hostOps1]
  after_results_simp <;> rfl
/-- `main_arg4` is not written. -/
theorem mid_main_arg4 : after hostOps1 Wv (Proc.devRef .tc main_arg4) = Wv (Proc.devRef .tc main_arg4) := by
  dsimp only [hostOps1]
  after_results_simp <;> rfl
/-- `main_arg5` is not written. -/
theorem mid_main_arg5 : after hostOps1 Wv (Proc.devRef .tc main_arg5) = Wv (Proc.devRef .tc main_arg5) := by
  dsimp only [hostOps1]
  after_results_simp <;> rfl

/-! ### After the second product -/

/-- The second layer's output: the result. -/
theorem tail_out : after hostOps2 Wv (Proc.devRef .tc main_v62)
    = aggK (Wv (Proc.devRef .tc main_v47)) (Wv (Proc.devRef .tc main_v5)) (Wv (Proc.devRef .tc main_v6))
        (Wv (Proc.devRef .tc main_v30)) (Wv (Proc.devRef .tc main_arg5)) := by
  dsimp only [hostOps2]
  after_results_simp <;> rfl

end Stretches

/-! ## The seven boundaries -/

variable (m : (ℓ : Loc nD τ sig) → Buf (Elt Ideal) ℓ) (ρ : Dev nD → PrngReg) (c : Dev nD)

/-- The edge list as launched. -/
abbrev edges : (⟨S2x1600000, .i32⟩ : BufTy).Contents (Elt Ideal) := m ((c.tc : Thread nD τ).loc main_arg1)

/-! ### At the first product's entry -/

theorem W3_src : W3 m ρ c (Proc.devRef .tc main_v5) = Cert.ReferenceIdeal.ReadP.val_main_v6 (F := Ideal) (edges m c) := entry_src (W0 m ρ c)
theorem W3_dst : W3 m ρ c (Proc.devRef .tc main_v6) = Cert.ReferenceIdeal.ReadP.val_main_v7 (F := Ideal) (edges m c) := entry_dst (W0 m ρ c)
theorem W3_norm : W3 m ρ c (Proc.devRef .tc main_v30) = Cert.ReferenceIdeal.ReadP.val_main_v38 (F := Ideal) (edges m c) := entry_norm (W0 m ρ c)
theorem W3_arg0 : W3 m ρ c (Proc.devRef .tc main_arg0) = m ((c.tc : Thread nD τ).loc main_arg0) := entry_arg0 (W0 m ρ c)
theorem W3_arg2 : W3 m ρ c (Proc.devRef .tc main_arg2) = m ((c.tc : Thread nD τ).loc main_arg2) := entry_arg2 (W0 m ρ c)
theorem W3_arg3 : W3 m ρ c (Proc.devRef .tc main_arg3) = m ((c.tc : Thread nD τ).loc main_arg3) := entry_arg3 (W0 m ρ c)
theorem W3_arg4 : W3 m ρ c (Proc.devRef .tc main_arg4) = m ((c.tc : Thread nD τ).loc main_arg4) := entry_arg4 (W0 m ρ c)
theorem W3_arg5 : W3 m ρ c (Proc.devRef .tc main_arg5) = m ((c.tc : Thread nD τ).loc main_arg5) := entry_arg5 (W0 m ρ c)

/-! ### At the first product's exit: its output array holds X · W1, every other buffer is as entered -/

theorem W4_out : W4 m ρ c (Proc.devRef .tc main_v31)
    = Cert.ReferenceIdeal.ReadP.val_main_v4 (F := Ideal) (m ((c.tc : Thread nD τ).loc main_arg0)) (m ((c.tc : Thread nD τ).loc main_arg2)) := by
  refine (W4_arr m ρ c 2).trans ((Cert.Gcn.Region0.final (V3 m ρ) c).trans ?_)
  have hX : Cert.Gcn.Region0.X (V3 m ρ) c = m ((c.tc : Thread nD τ).loc main_arg0) := W3_arg0 m ρ c
  have hW : Cert.Gcn.Region0.W (V3 m ρ) c = m ((c.tc : Thread nD τ).loc main_arg2) := W3_arg2 m ρ c
  dsimp only [Cert.Gcn.Region0.product]
  rw [hX, hW]
  rfl
theorem W4_src : W4 m ρ c (Proc.devRef .tc main_v5) = W3 m ρ c (Proc.devRef .tc main_v5) := W4_of_ne m ρ c main_v5 (by decide)
theorem W4_dst : W4 m ρ c (Proc.devRef .tc main_v6) = W3 m ρ c (Proc.devRef .tc main_v6) := W4_of_ne m ρ c main_v6 (by decide)
theorem W4_norm : W4 m ρ c (Proc.devRef .tc main_v30) = W3 m ρ c (Proc.devRef .tc main_v30) := W4_of_ne m ρ c main_v30 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)

/-! ### At the second product's entry: the first layer's output -/

theorem W5_out : W5 m ρ c (Proc.devRef .tc main_v46)
    = aggregate (Cert.ReferenceIdeal.ReadP.val_main_v4 (F := Ideal) (m ((c.tc : Thread nD τ).loc main_arg0)) (m ((c.tc : Thread nD τ).loc main_arg2)))
        (edges m c) (m ((c.tc : Thread nD τ).loc main_arg3)) := by
  refine (mid_out (W4 m ρ c)).trans ?_
  rw [W4_out m ρ c, W4_src m ρ c, W4_dst m ρ c, W4_norm m ρ c, W4_arg3 m ρ c,
    W3_src m ρ c, W3_dst m ρ c, W3_norm m ρ c, W3_arg3 m ρ c]
  exact aggK_eq _ _ _
theorem W5_src : W5 m ρ c (Proc.devRef .tc main_v5) = W4 m ρ c (Proc.devRef .tc main_v5) := mid_main_v5 (W4 m ρ c)
theorem W5_dst : W5 m ρ c (Proc.devRef .tc main_v6) = W4 m ρ c (Proc.devRef .tc main_v6) := mid_main_v6 (W4 m ρ c)
theorem W5_norm : W5 m ρ c (Proc.devRef .tc main_v30) = W4 m ρ c (Proc.devRef .tc main_v30) := mid_main_v30 (W4 m ρ c)
theorem W5_arg4 : W5 m ρ c (Proc.devRef .tc main_arg4) = W4 m ρ c (Proc.devRef .tc main_arg4) := mid_main_arg4 (W4 m ρ c)
theorem W5_arg5 : W5 m ρ c (Proc.devRef .tc main_arg5) = W4 m ρ c (Proc.devRef .tc main_arg5) := mid_main_arg5 (W4 m ρ c)

/-! ### At the second product's exit: its output array holds max(H, 0) · W2, every other buffer is as entered -/

theorem W6_out : W6 m ρ c (Proc.devRef .tc main_v47)
    = rectifiedProduct (aggregate (Cert.ReferenceIdeal.ReadP.val_main_v4 (F := Ideal) (m ((c.tc : Thread nD τ).loc main_arg0)) (m ((c.tc : Thread nD τ).loc main_arg2)))
        (edges m c) (m ((c.tc : Thread nD τ).loc main_arg3))) (m ((c.tc : Thread nD τ).loc main_arg4)) := by
  refine (W6_arr m ρ c 2).trans ((Cert.Gcn.Region1.final (V5 m ρ) c).trans ?_)
  have hH : Cert.Gcn.Region1.H (V5 m ρ) c
      = aggregate (Cert.ReferenceIdeal.ReadP.val_main_v4 (F := Ideal) (m ((c.tc : Thread nD τ).loc main_arg0)) (m ((c.tc : Thread nD τ).loc main_arg2)))
          (edges m c) (m ((c.tc : Thread nD τ).loc main_arg3)) := W5_out m ρ c
  have hW : Cert.Gcn.Region1.W (V5 m ρ) c = m ((c.tc : Thread nD τ).loc main_arg4) :=
    (W5_arg4 m ρ c).trans ((W4_arg4 m ρ c).trans (W3_arg4 m ρ c))
  dsimp only [Cert.Gcn.Region1.product]
  rw [hH, hW]
  rfl
theorem W6_src : W6 m ρ c (Proc.devRef .tc main_v5) = W5 m ρ c (Proc.devRef .tc main_v5) := W6_of_ne m ρ c main_v5 (by decide)
theorem W6_dst : W6 m ρ c (Proc.devRef .tc main_v6) = W5 m ρ c (Proc.devRef .tc main_v6) := W6_of_ne m ρ c main_v6 (by decide)
theorem W6_norm : W6 m ρ c (Proc.devRef .tc main_v30) = W5 m ρ c (Proc.devRef .tc main_v30) := W6_of_ne m ρ c main_v30 (by decide)
theorem W6_arg5 : W6 m ρ c (Proc.devRef .tc main_arg5) = W5 m ρ c (Proc.devRef .tc main_arg5) := W6_of_ne m ρ c main_arg5 (by decide)

/-! ### At the return -/

/-- The result array after the run, as a function of the six arguments as launched. -/
theorem result_eq : W7 m ρ c (Proc.devRef .tc main_v62)
    = aggregate
        (rectifiedProduct
          (aggregate (Cert.ReferenceIdeal.ReadP.val_main_v4 (F := Ideal) (m ((c.tc : Thread nD τ).loc main_arg0)) (m ((c.tc : Thread nD τ).loc main_arg2)))
            (edges m c) (m ((c.tc : Thread nD τ).loc main_arg3)))
          (m ((c.tc : Thread nD τ).loc main_arg4)))
        (edges m c) (m ((c.tc : Thread nD τ).loc main_arg5)) := by
  refine (tail_out (W6 m ρ c)).trans ?_
  rw [W6_out m ρ c, W6_src m ρ c, W6_dst m ρ c, W6_norm m ρ c, W6_arg5 m ρ c,
    W5_src m ρ c, W5_dst m ρ c, W5_norm m ρ c, W5_arg5 m ρ c,
    W4_src m ρ c, W4_dst m ρ c, W4_norm m ρ c, W4_arg5 m ρ c,
    W3_src m ρ c, W3_dst m ρ c, W3_norm m ρ c, W3_arg5 m ρ c]
  exact aggK_eq _ _ _

end Cert.Gcn.KernelHost

end
-- ==== Proof.lean ====
/-
  A two-layer graph convolution, with its two dense projections tiled, against the same network written whole.

  Both programs take node features X (100000×128), an edge list, weights W1 (128×64), W2 (64×64) and biases b1, b2, and
  compute, on the extended reals,

      aggregate (max(aggregate (X · W1) b1, 0) · W2) b2,

  where `aggregate P b` gathers the rows of P at each edge's source, scales each by the edge's symmetric normalisation
  deg(source)^(-1/2) · deg(target)^(-1/2), adds each into its target's row and adds b to every row (self-loops included;
  the degrees, the normalisation and the gather and scatter indices are functions of the edge list alone). The programs
  differ in three places only. The kernel computes each projection ten thousand rows at a time, as a matrix product
  into a zero accumulator of operands narrowed to bf16 — the identity on exact values —, and a block of rows of a product
  is the product of the block of rows. It takes the maximum with zero inside the second product's body, where the
  reference takes it on the whole array first. And it computes the degrees and the normalisation once, where the
  reference computes them once per layer by the same operations on the same edge list. No law of arithmetic beyond
  these is used: sums are never regrouped across an infinity, so the inputs' finiteness is not needed, and the gather and
  the scatter-add are never opened — both programs apply one and the same function `aggregate`.

  The kernel's run with its result kept is Proof/KernelRun.lean; its two products as whole arrays are Proof/Region0.lean
  and Proof/Region1.lean; its host operations read stretch by stretch, and its result as the formula above, are
  Proof/KernelHost.lean; the reference as the same formula is Proof/Layer.lean.
-/
import proofs.«172882_j5162550690708_1_alg».proof.Defs
import proofs.«172882_j5162550690708_1_alg».proof.Proof.Gen.Kernel
import proofs.«172882_j5162550690708_1_alg».proof.Proof.Gen.Kernel.Frame
import proofs.«172882_j5162550690708_1_alg».proof.Proof.Gen.KernelIdeal
import proofs.«172882_j5162550690708_1_alg».proof.Proof.Gen.KernelIdeal.Frame
import proofs.«172882_j5162550690708_1_alg».proof.Proof.Gen.ReferenceIdeal
import proofs.«172882_j5162550690708_1_alg».proof.Proof.Gen.Pre_finite_inputs
import proofs.«172882_j5162550690708_1_alg».proof.Proof.RefRun
import proofs.«172882_j5162550690708_1_alg».proof.Proof.RefRead
import proofs.«172882_j5162550690708_1_alg».proof.Proof.Layer
import proofs.«172882_j5162550690708_1_alg».proof.Proof.KernelRun
import proofs.«172882_j5162550690708_1_alg».proof.Proof.KernelHost
import Idealize.ShloMosaic.Adequacy
import Idealize.ShloMosaic.Init

noncomputable section

namespace Cert.Proof

open Idealize.ShloMosaic Idealize.SL.Sem

/-- The network's output as a function of the kernel's six argument arrays as launched. -/
def value (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v62) :=
  Cert.Gcn.Layer.aggregate
    (Cert.Gcn.Layer.rectifiedProduct
      (Cert.Gcn.Layer.aggregate
        (Cert.ReferenceIdeal.ReadP.val_main_v4 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg5))

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing: the idealized kernel is the kernel's own text read on the extended reals. -/
theorem preserves : Cert.preserves_Kernel_KernelIdeal := trivial

/-- From memories that agree on the six arguments both programs end with the network's output in their result arrays:
    the kernel by its run read through its seven boundaries, the reference by its run read as two layers. -/
theorem algebraic : Cert.algebraic_KernelIdeal_ReferenceIdeal := by
  intro m ρ m' ρ' _ hagree
  refine ⟨value m, ?_, ?_⟩
  · exact (θ_run Cert.KernelIdeal.defs _ _).mono
      (fun _ h c => ⟨(h c).1.trans (Cert.Gcn.KernelHost.result_eq m ρ c), (h c).2⟩)
      (Cert.Gcn.KernelRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v90_eq, Cert.Gcn.Layer.reference_value,
      (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
